-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S1x16 : Shape := ⟨2, ![1, 16]⟩
abbrev S100000x64 : Shape := ⟨2, ![100000, 64]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x64, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x64, .f32⟩
  | .hbm, ⟨74, _⟩ => ⟨S3300000x1, .f32⟩
  | .hbm, ⟨75, _⟩ => ⟨S3300000x64, .f32⟩
  | .hbm, ⟨76, _⟩ => ⟨S3300000x64, .f32⟩
  | .hbm, ⟨77, _⟩ => ⟨S_, .f32⟩
  | .hbm, ⟨78, _⟩ => ⟨S100000x64, .f32⟩
  | .hbm, ⟨79, _⟩ => ⟨S3300000x1, .i32⟩
  | .hbm, ⟨80, _⟩ => ⟨S100000x64, .f32⟩
  | .hbm, ⟨81, _⟩ => ⟨S1x64, .f32⟩
  | .hbm, ⟨82, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x1, .f32⟩
  | .hbm, ⟨80, _⟩ => ⟨S3300000x64, .f32⟩
  | .hbm, ⟨81, _⟩ => ⟨S3300000x64, .f32⟩
  | .hbm, ⟨82, _⟩ => ⟨S_, .f32⟩
  | .hbm, ⟨83, _⟩ => ⟨S100000x64, .f32⟩
  | .hbm, ⟨84, _⟩ => ⟨S3300000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The idealized kernel's run with its result named.  @main is eight segments: three stretches of host operations, the
  first product's pipeline, a stretch, the second product's pipeline, a stretch, the bias pipeline.  Every weakly fair
  execution terminates with each unscoped buffer at the contents the fold of those segments leaves in it; read at the
  result's buffer that is the last pipeline's output array after all twenty of its row blocks are written back, and read
  at an argument's buffer it is the launch contents, since no segment writes an argument.
-/
import proofs.«160660_j1881195675938_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at what the
    last segment leaves in it and the six arguments as launched. -/
theorem run_named : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunV

end
-- ==== Proof.KernelFold.lean ====
/-
  The host side of the kernel's @main, read once.  Between and before its three pipelines @main runs stretches of host
  operations.  The three before the first pipeline compute, from the edge array alone, the edge list with its
  self-loops and the edges' weights.  The stretch after the first pipeline forms the neighbourhood sum of that
  pipeline's output and reshapes the first bias to one row; the stretch after the second does the same for the second
  layer.  Each is stated as a named function of the few buffers it reads, so that nothing later has to open a gather
  or a scatter-add.
-/
import proofs.«160660_j1881195675938_1_alg».proof.Proof.Gen.KernelIdeal.Frame
import Idealize.ShloMosaic.PureOps.Ideal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

/-! ## The edge list and its weights, as functions of the edge array

The 3,200,000 given edges are followed by one self-loop per node: `srcT` and `dstT` are row 0 and row 1 of the edge
array, each followed by 0, 1, …, 99999.  A node's degree counts the edges that end in it, and an edge's weight is the
product of the inverse square roots of its two end nodes' degrees (zero where a degree is not positive). -/

/-- The edges' source nodes, self-loops appended. -/
def srcT (e : Vec Ideal S2x3200000 .i32) : Vec Ideal S3300000 .i32 :=
  (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)

/-- The edges' destination nodes, self-loops appended. -/
def dstT (e : Vec Ideal S2x3200000 .i32) : Vec Ideal S3300000 .i32 :=
  (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)

/-- A list of node indices as the gather takes it: a negative index is wrapped by adding 100000, and the list is made
    a one-column array. -/
def srcCol (src : Vec Ideal S3300000 .i32) : Vec Ideal S3300000x1 .i32 :=
  broadcastInDim S3300000x1 ![0] bcast_S3300000_S3300000x1_0
    (select (cmpi .slt src (broadcastInDim S3300000 ![] bcast_S_S3300000 (constantI S_ 32 0#32)))
      (addi src (broadcastInDim S3300000 ![] bcast_S_S3300000 (constantI S_ 32 100000#32))) src)

/-- The nodes' degrees: one added at its destination for every edge. -/
def degT (dst : Vec Ideal S3300000 .i32) : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 dst)
    (broadcastInDim S3300000 ![] bcast_S_S3300000 (constant (F := Ideal) S_ .f32 0x3F800000#32))

/-- The inverse square root of a positive degree, zero otherwise. -/
def dinvT (dst : Vec Ideal S3300000 .i32) : FVec Ideal S100000 .f32 :=
  select (cmpf (F := Ideal) .ogt (degT dst) (broadcastInDim S100000 ![] bcast_S_S100000 (constant (F := Ideal) S_ .f32 0x00000000#32)))
    (Host.rsqrt (F := Ideal) (degT dst))
    (broadcastInDim S100000 ![] bcast_S_S100000 (id (constant (F := Ideal) S_ .f32 0x00000000#32)))

/-- An edge's weight from the per-node factors: the factor at its source times the factor at its destination. -/
def nrmOf (dinv : FVec Ideal S100000 .f32) (src dst : Vec Ideal S3300000 .i32) : FVec Ideal S3300000 .f32 :=
  mulf (Host.gather gather_S100000_S3300000x1_S3300000_n_0_n_n_0_1_1 dinv (srcCol src))
    (Host.gather gather_S100000_S3300000x1_S3300000_n_0_n_n_0_1_1 dinv (srcCol dst))

/-- The edges' weights. -/
def nrmT (e : Vec Ideal S2x3200000 .i32) : FVec Ideal S3300000 .f32 :=
  nrmOf (dinvT (dstT e)) (srcT e) (dstT e)

/-! ## The neighbourhood sum, as one function of the arrays it reads

Both layers aggregate in the same way: row `dst e` of the result collects `nrm e` times row `src e` of the features. -/

/-- The neighbourhood sum of 16-channel features. -/
def agg16 (src dst : Vec Ideal S3300000 .i32) (nrm : FVec Ideal S3300000 .f32)
    (h : FVec Ideal S100000x16 .f32) : FVec Ideal S100000x16 .f32 :=
  Host.scatterAdd (F := Ideal) scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 dst)
    (mulf (Host.gather gather_S100000x16_S3300000x1_S3300000x16_1_0_n_n_0_1_116 h (srcCol src))
      (broadcastInDim S3300000x16 ![0, 1] bcast_S3300000x1_S3300000x16_0_1 (broadcastInDim S3300000x1 ![0] bcast_S3300000_S3300000x1_0 nrm)))

/-- The neighbourhood sum of 64-channel features. -/
def agg64 (src dst : Vec Ideal S3300000 .i32) (nrm : FVec Ideal S3300000 .f32)
    (h : FVec Ideal S100000x64 .f32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 dst)
    (mulf (Host.gather gather_S100000x64_S3300000x1_S3300000x64_1_0_n_n_0_1_164 h (srcCol src))
      (broadcastInDim S3300000x64 ![0, 1] bcast_S3300000x1_S3300000x64_0_1 (broadcastInDim S3300000x1 ![0] bcast_S3300000_S3300000x1_0 nrm)))

/-! ## The three stretches before the first pipeline, each over any buffer contents `V` it may start from -/

section Stages
variable (V : Valuation τ sig (Elt Ideal))

set_option maxHeartbeats 8000000 in
set_option maxRecDepth 65536 in
/-- The third stretch turns the per-node factors and the edge list into the edge weights … -/
theorem third_nrm : StableHlo.after hostOps0_2 V (Proc.devRef .tc main_v29)
    = nrmOf (V (Proc.devRef .tc main_v14)) (V (Proc.devRef .tc main_v3)) (V (Proc.devRef .tc main_v6)) := by
  after_results_simp
  rfl
-- … and leaves the edge list and the arguments alone.
set_option maxHeartbeats 8000000 in
set_option maxRecDepth 65536 in
theorem third_main_v3 : StableHlo.after hostOps0_2 V (Proc.devRef .tc main_v3) = V (Proc.devRef .tc main_v3) := by
  after_results_simp
set_option maxHeartbeats 8000000 in
set_option maxRecDepth 65536 in
theorem third_main_v6 : StableHlo.after hostOps0_2 V (Proc.devRef .tc main_v6) = V (Proc.devRef .tc main_v6) := by
  after_results_simp
set_option maxHeartbeats 8000000 in
set_option maxRecDepth 65536 in
theorem third_main_arg0 : StableHlo.after hostOps0_2 V (Proc.devRef .tc main_arg0) = V (Proc.devRef .tc main_arg0) := by
  after_results_simp
set_option maxHeartbeats 8000000 in
set_option maxRecDepth 65536 in
theorem third_main_arg2 : StableHlo.after hostOps0_2 V (Proc.devRef .tc main_arg2) = V (Proc.devRef .tc main_arg2) := by
  after_results_simp
set_option maxHeartbeats 8000000 in
set_option maxRecDepth 65536 in
theorem third_main_arg3 : StableHlo.after hostOps0_2 V (Proc.devRef .tc main_arg3) = V (Proc.devRef .tc main_arg3) := by
  after_results_simp
set_option maxHeartbeats 8000000 in
set_option maxRecDepth 65536 in
theorem third_main_arg4 : StableHlo.after hostOps0_2 V (Proc.devRef .tc main_arg4) = V (Proc.devRef .tc main_arg4) := by
  after_results_simp
set_option maxHeartbeats 8000000 in
set_option maxRecDepth 65536 in
theorem third_main_arg5 : StableHlo.after hostOps0_2 V (Proc.devRef .tc main_arg5) = V (Proc.devRef .tc main_arg5) := by
  after_results_simp

set_option maxHeartbeats 8000000 in
set_option maxRecDepth 65536 in
/-- The second stretch selects the per-node factor: the inverse square root where the degree is positive. -/
theorem second_dinv : StableHlo.after hostOps0_1 V (Proc.devRef .tc main_v14)
    = select (V (Proc.devRef .tc main_v12)) (V (Proc.devRef .tc main_v13))
        (broadcastInDim S100000 ![] bcast_S_S100000 (id (V (Proc.devRef .tc main_cst_2)))) := by
  after_results_simp
  rfl
set_option maxHeartbeats 8000000 in
set_option maxRecDepth 65536 in
theorem second_main_v3 : StableHlo.after hostOps0_1 V (Proc.devRef .tc main_v3) = V (Proc.devRef .tc main_v3) := by
  after_results_simp
set_option maxHeartbeats 8000000 in
set_option maxRecDepth 65536 in
theorem second_main_v6 : StableHlo.after hostOps0_1 V (Proc.devRef .tc main_v6) = V (Proc.devRef .tc main_v6) := by
  after_results_simp
set_option maxHeartbeats 8000000 in
set_option maxRecDepth 65536 in
theorem second_main_arg0 : StableHlo.after hostOps0_1 V (Proc.devRef .tc main_arg0) = V (Proc.devRef .tc main_arg0) := by
  after_results_simp
set_option maxHeartbeats 8000000 in
set_option maxRecDepth 65536 in
theorem second_main_arg2 : StableHlo.after hostOps0_1 V (Proc.devRef .tc main_arg2) = V (Proc.devRef .tc main_arg2) := by
  after_results_simp
set_option maxHeartbeats 8000000 in
set_option maxRecDepth 65536 in
theorem second_main_arg3 : StableHlo.after hostOps0_1 V (Proc.devRef .tc main_arg3) = V (Proc.devRef .tc main_arg3) := by
  after_results_simp
set_option maxHeartbeats 8000000 in
set_option maxRecDepth 65536 in
theorem second_main_arg4 : StableHlo.after hostOps0_1 V (Proc.devRef .tc main_arg4) = V (Proc.devRef .tc main_arg4) := by
  after_results_simp
set_option maxHeartbeats 8000000 in
set_option maxRecDepth 65536 in
theorem second_main_arg5 : StableHlo.after hostOps0_1 V (Proc.devRef .tc main_arg5) = V (Proc.devRef .tc main_arg5) := by
  after_results_simp

end Stages

variable (m : (ℓ : Loc nD τ sig) → Buf (Elt Ideal) ℓ) (ρ : Dev nD → PrngReg) (c : Dev nD)

/-! ## The first stretch, from the launch memory: the edge list and the degrees -/

set_option maxHeartbeats 8000000 in
set_option maxRecDepth 65536 in
theorem first_src : W1 m ρ c (Proc.devRef .tc main_v3) = srcT (m ((c.tc : Thread nD τ).loc main_arg1)) := by
  show StableHlo.after hostOps0 (W0 m ρ c) (Proc.devRef .tc main_v3) = _
  after_results_simp
  rfl
set_option maxHeartbeats 8000000 in
set_option maxRecDepth 65536 in
theorem first_dst : W1 m ρ c (Proc.devRef .tc main_v6) = dstT (m ((c.tc : Thread nD τ).loc main_arg1)) := by
  show StableHlo.after hostOps0 (W0 m ρ c) (Proc.devRef .tc main_v6) = _
  after_results_simp
  rfl
set_option maxHeartbeats 8000000 in
set_option maxRecDepth 65536 in
theorem first_pos : W1 m ρ c (Proc.devRef .tc main_v12)
    = cmpf (F := Ideal) .ogt (degT (dstT (m ((c.tc : Thread nD τ).loc main_arg1)))) (broadcastInDim S100000 ![] bcast_S_S100000 (constant (F := Ideal) S_ .f32 0x00000000#32)) := by
  show StableHlo.after hostOps0 (W0 m ρ c) (Proc.devRef .tc main_v12) = _
  after_results_simp
  rfl
set_option maxHeartbeats 8000000 in
set_option maxRecDepth 65536 in
theorem first_rsqrt : W1 m ρ c (Proc.devRef .tc main_v13) = Host.rsqrt (F := Ideal) (degT (dstT (m ((c.tc : Thread nD τ).loc main_arg1)))) := by
  show StableHlo.after hostOps0 (W0 m ρ c) (Proc.devRef .tc main_v13) = _
  after_results_simp
  rfl
set_option maxHeartbeats 8000000 in
set_option maxRecDepth 65536 in
theorem first_zero : W1 m ρ c (Proc.devRef .tc main_cst_2) = constant (F := Ideal) S_ .f32 0x00000000#32 := by
  show StableHlo.after hostOps0 (W0 m ρ c) (Proc.devRef .tc main_cst_2) = _
  after_results_simp
set_option maxHeartbeats 8000000 in
set_option maxRecDepth 65536 in
theorem first_arg0 : W1 m ρ c (Proc.devRef .tc main_arg0) = m ((c.tc : Thread nD τ).loc main_arg0) := by
  show StableHlo.after hostOps0 (W0 m ρ c) (Proc.devRef .tc main_arg0) = _
  after_results_simp
set_option maxHeartbeats 8000000 in
set_option maxRecDepth 65536 in
theorem first_arg2 : W1 m ρ c (Proc.devRef .tc main_arg2) = m ((c.tc : Thread nD τ).loc main_arg2) := by
  show StableHlo.after hostOps0 (W0 m ρ c) (Proc.devRef .tc main_arg2) = _
  after_results_simp
set_option maxHeartbeats 8000000 in
set_option maxRecDepth 65536 in
theorem first_arg3 : W1 m ρ c (Proc.devRef .tc main_arg3) = m ((c.tc : Thread nD τ).loc main_arg3) := by
  show StableHlo.after hostOps0 (W0 m ρ c) (Proc.devRef .tc main_arg3) = _
  after_results_simp
set_option maxHeartbeats 8000000 in
set_option maxRecDepth 65536 in
theorem first_arg4 : W1 m ρ c (Proc.devRef .tc main_arg4) = m ((c.tc : Thread nD τ).loc main_arg4) := by
  show StableHlo.after hostOps0 (W0 m ρ c) (Proc.devRef .tc main_arg4) = _
  after_results_simp
set_option maxHeartbeats 8000000 in
set_option maxRecDepth 65536 in
theorem first_arg5 : W1 m ρ c (Proc.devRef .tc main_arg5) = m ((c.tc : Thread nD τ).loc main_arg5) := by
  show StableHlo.after hostOps0 (W0 m ρ c) (Proc.devRef .tc main_arg5) = _
  after_results_simp

/-! ## What the first pipeline finds -/

/-- The edge list's sources, read through the three stretches. -/
theorem entry_src : W3 m ρ c (Proc.devRef .tc main_v3) = srcT (m ((c.tc : Thread nD τ).loc main_arg1)) :=
  (third_main_v3 (W2 m ρ c)).trans ((second_main_v3 (W1 m ρ c)).trans (first_src m ρ c))
/-- The edge list's destinations. -/
theorem entry_dst : W3 m ρ c (Proc.devRef .tc main_v6) = dstT (m ((c.tc : Thread nD τ).loc main_arg1)) :=
  (third_main_v6 (W2 m ρ c)).trans ((second_main_v6 (W1 m ρ c)).trans (first_dst m ρ c))
/-- The edges' weights: the third stretch's product of the per-node factors the second stretch selected from the
    degrees the first stretch counted. -/
theorem entry_nrm : W3 m ρ c (Proc.devRef .tc main_v29) = nrmT (m ((c.tc : Thread nD τ).loc main_arg1)) := by
  refine (third_nrm (W2 m ρ c)).trans ?_
  have e14 : W2 m ρ c (Proc.devRef .tc main_v14) = dinvT (dstT (m ((c.tc : Thread nD τ).loc main_arg1))) := by
    refine (second_dinv (W1 m ρ c)).trans ?_
    rw [first_pos m ρ c, first_rsqrt m ρ c, first_zero m ρ c]
    rfl
  have e3 : W2 m ρ c (Proc.devRef .tc main_v3) = srcT (m ((c.tc : Thread nD τ).loc main_arg1)) :=
    (second_main_v3 (W1 m ρ c)).trans (first_src m ρ c)
  have e6 : W2 m ρ c (Proc.devRef .tc main_v6) = dstT (m ((c.tc : Thread nD τ).loc main_arg1)) :=
    (second_main_v6 (W1 m ρ c)).trans (first_dst m ρ c)
  rw [e14, e3, e6]
  rfl
theorem entry_arg0 : W3 m ρ c (Proc.devRef .tc main_arg0) = m ((c.tc : Thread nD τ).loc main_arg0) :=
  (third_main_arg0 (W2 m ρ c)).trans ((second_main_arg0 (W1 m ρ c)).trans (first_arg0 m ρ c))
theorem entry_arg2 : W3 m ρ c (Proc.devRef .tc main_arg2) = m ((c.tc : Thread nD τ).loc main_arg2) :=
  (third_main_arg2 (W2 m ρ c)).trans ((second_main_arg2 (W1 m ρ c)).trans (first_arg2 m ρ c))
theorem entry_arg3 : W3 m ρ c (Proc.devRef .tc main_arg3) = m ((c.tc : Thread nD τ).loc main_arg3) :=
  (third_main_arg3 (W2 m ρ c)).trans ((second_main_arg3 (W1 m ρ c)).trans (first_arg3 m ρ c))
theorem entry_arg4 : W3 m ρ c (Proc.devRef .tc main_arg4) = m ((c.tc : Thread nD τ).loc main_arg4) :=
  (third_main_arg4 (W2 m ρ c)).trans ((second_main_arg4 (W1 m ρ c)).trans (first_arg4 m ρ c))
theorem entry_arg5 : W3 m ρ c (Proc.devRef .tc main_arg5) = m ((c.tc : Thread nD τ).loc main_arg5) :=
  (third_main_arg5 (W2 m ρ c)).trans ((second_main_arg5 (W1 m ρ c)).trans (first_arg5 m ρ c))

/-! ## The stretch between the first and the second pipeline

The first pipeline writes only its output array, so the edge list, the weights and the arguments are as it found them. -/

theorem mid1_main_v3 : W4 m ρ c (Proc.devRef .tc main_v3) = W3 m ρ c (Proc.devRef .tc main_v3) := W4_of_ne m ρ c main_v3 (by decide)
theorem mid1_main_v6 : W4 m ρ c (Proc.devRef .tc main_v6) = W3 m ρ c (Proc.devRef .tc main_v6) := W4_of_ne m ρ c main_v6 (by decide)
theorem mid1_main_v29 : W4 m ρ c (Proc.devRef .tc main_v29) = W3 m ρ c (Proc.devRef .tc main_v29) := W4_of_ne m ρ c main_v29 (by decide)
theorem mid1_main_arg3 : W4 m ρ c (Proc.devRef .tc main_arg3) = W3 m ρ c (Proc.devRef .tc main_arg3) := W4_of_ne m ρ c main_arg3 (by decide)
theorem mid1_main_arg4 : W4 m ρ c (Proc.devRef .tc main_arg4) = W3 m ρ c (Proc.devRef .tc main_arg4) := W4_of_ne m ρ c main_arg4 (by decide)
theorem mid1_main_arg5 : W4 m ρ c (Proc.devRef .tc main_arg5) = W3 m ρ c (Proc.devRef .tc main_arg5) := W4_of_ne m ρ c main_arg5 (by decide)

set_option maxHeartbeats 8000000 in
set_option maxRecDepth 65536 in
/-- The stretch leaves the first layer's neighbourhood sum of the first pipeline's output in the second pipeline's row window … -/
theorem stretch1_rows : W5 m ρ c (Proc.devRef .tc main_v43)
    = agg16 (W4 m ρ c (Proc.devRef .tc main_v3)) (W4 m ρ c (Proc.devRef .tc main_v6)) (W4 m ρ c (Proc.devRef .tc main_v29))
        (W4 m ρ c (Proc.devRef .tc main_v30)) := by
  show StableHlo.after hostOps1 (W4 m ρ c) (Proc.devRef .tc main_v43) = _
  after_results_simp
  rfl
set_option maxHeartbeats 8000000 in
set_option maxRecDepth 65536 in
/-- … the first bias as a one-row array … -/
theorem stretch1_bias : W5 m ρ c (Proc.devRef .tc main_v44)
    = shapeCast S1x16 (W4 m ρ c (Proc.devRef .tc main_arg3)) shapeCasts_S16_S1x16 := by
  show StableHlo.after hostOps1 (W4 m ρ c) (Proc.devRef .tc main_v44) = _
  after_results_simp
  rfl
-- … and everything else it does not write as it was.
set_option maxHeartbeats 8000000 in
set_option maxRecDepth 65536 in
theorem stretch1_main_v3 : W5 m ρ c (Proc.devRef .tc main_v3) = W4 m ρ c (Proc.devRef .tc main_v3) := by
  show StableHlo.after hostOps1 (W4 m ρ c) (Proc.devRef .tc main_v3) = _
  after_results_simp
set_option maxHeartbeats 8000000 in
set_option maxRecDepth 65536 in
theorem stretch1_main_v6 : W5 m ρ c (Proc.devRef .tc main_v6) = W4 m ρ c (Proc.devRef .tc main_v6) := by
  show StableHlo.after hostOps1 (W4 m ρ c) (Proc.devRef .tc main_v6) = _
  after_results_simp
set_option maxHeartbeats 8000000 in
set_option maxRecDepth 65536 in
theorem stretch1_main_v29 : W5 m ρ c (Proc.devRef .tc main_v29) = W4 m ρ c (Proc.devRef .tc main_v29) := by
  show StableHlo.after hostOps1 (W4 m ρ c) (Proc.devRef .tc main_v29) = _
  after_results_simp
set_option maxHeartbeats 8000000 in
set_option maxRecDepth 65536 in
theorem stretch1_main_arg4 : W5 m ρ c (Proc.devRef .tc main_arg4) = W4 m ρ c (Proc.devRef .tc main_arg4) := by
  show StableHlo.after hostOps1 (W4 m ρ c) (Proc.devRef .tc main_arg4) = _
  after_results_simp
set_option maxHeartbeats 8000000 in
set_option maxRecDepth 65536 in
theorem stretch1_main_arg5 : W5 m ρ c (Proc.devRef .tc main_arg5) = W4 m ρ c (Proc.devRef .tc main_arg5) := by
  show StableHlo.after hostOps1 (W4 m ρ c) (Proc.devRef .tc main_arg5) = _
  after_results_simp

/-! ## The stretch between the second and the third pipeline -/

theorem mid2_main_v3 : W6 m ρ c (Proc.devRef .tc main_v3) = W5 m ρ c (Proc.devRef .tc main_v3) := W6_of_ne m ρ c main_v3 (by decide)
theorem mid2_main_v6 : W6 m ρ c (Proc.devRef .tc main_v6) = W5 m ρ c (Proc.devRef .tc main_v6) := W6_of_ne m ρ c main_v6 (by decide)
theorem mid2_main_v29 : W6 m ρ c (Proc.devRef .tc main_v29) = W5 m ρ c (Proc.devRef .tc main_v29) := W6_of_ne m ρ c main_v29 (by decide)
theorem mid2_main_arg5 : W6 m ρ c (Proc.devRef .tc main_arg5) = W5 m ρ c (Proc.devRef .tc main_arg5) := W6_of_ne m ρ c main_arg5 (by decide)

set_option maxHeartbeats 8000000 in
set_option maxRecDepth 65536 in
/-- The stretch leaves the second layer's neighbourhood sum of the second pipeline's output in the third pipeline's row window … -/
theorem stretch2_rows : W7 m ρ c (Proc.devRef .tc main_v58)
    = agg64 (W6 m ρ c (Proc.devRef .tc main_v3)) (W6 m ρ c (Proc.devRef .tc main_v6)) (W6 m ρ c (Proc.devRef .tc main_v29))
        (W6 m ρ c (Proc.devRef .tc main_v45)) := by
  show StableHlo.after hostOps2 (W6 m ρ c) (Proc.devRef .tc main_v58) = _
  after_results_simp
  rfl
set_option maxHeartbeats 8000000 in
set_option maxRecDepth 65536 in
/-- … and the second bias as a one-row array. -/
theorem stretch2_bias : W7 m ρ c (Proc.devRef .tc main_v59)
    = shapeCast S1x64 (W6 m ρ c (Proc.devRef .tc main_arg5)) shapeCasts_S64_S1x64 := by
  show StableHlo.after hostOps2 (W6 m ρ c) (Proc.devRef .tc main_v59) = _
  after_results_simp
  rfl

end Cert.KernelIdeal.Fold

end
-- ==== Proof.Spec.lean ====
/-
  The three dense steps of a two-layer graph convolution, entry by entry, on the extended reals.

  With S(h) the normalized neighbourhood sum of node features h (gather along the edges' sources, scale by the edge
  weight, add up along the edges' destinations) the network is

      out = S( relu( S(x · W1) + b1 ) · W2 ) + b2 .

  S is the same host computation in both programs and is never opened.  What differs is how the three dense steps
  are carried out: by whole-array host operations, or in twenty blocks of 5000 node rows.  An entry (r, c) of a
  product reads only row r of its left operand, and an entry of a row-wise bias sum only its own entry and column c
  of the bias, so a block of rows of the result is the same function of the block of rows of the operand: no law of
  arithmetic is involved, and no finiteness.
-/
import Idealize.ShloMosaic.PureOps.Ideal
import Idealize.ShloMosaic.Lib.ValueIdx

noncomputable section

namespace Cert.Gcn

open Idealize.ShloMosaic Idealize.ShloMosaic.ValueIdx

/-- The first product x · W1 at entry (r, c): the sum over the 128 input channels. -/
def lin1 (x : FVec Ideal ⟨2, ![100000, 128]⟩ .f32) (w : FVec Ideal ⟨2, ![128, 16]⟩ .f32)
    (r : Fin 100000) (c : Fin 16) : Ideal .f32 :=
  ∑ k : Fin 128, x (ix2 r k) * w (ix2 k c)

/-- One hidden activation: max(a(r, k) + b(0, k), 0), the bias given as a one-row array. -/
def act (a : FVec Ideal ⟨2, ![100000, 16]⟩ .f32) (b : FVec Ideal ⟨2, ![1, 16]⟩ .f32)
    (r : Fin 100000) (k : Fin 16) : Ideal .f32 :=
  FloatOps.maximumf (FloatOps.addf (a (ix2 r k)) (b (ix2 (0 : Fin 1) k))) (Scalar.ofBits .f32 0x00000000#32)

/-- The second product relu(a + b) · W2 at entry (r, c): the sum over the 16 hidden channels. -/
def lin2 (a : FVec Ideal ⟨2, ![100000, 16]⟩ .f32) (b : FVec Ideal ⟨2, ![1, 16]⟩ .f32)
    (w : FVec Ideal ⟨2, ![16, 64]⟩ .f32) (r : Fin 100000) (c : Fin 64) : Ideal .f32 :=
  ∑ k : Fin 16, act a b r k * w (ix2 k c)

/-- The output bias sum a(r, c) + b(0, c), the bias given as a one-row array. -/
def biased (a : FVec Ideal ⟨2, ![100000, 64]⟩ .f32) (b : FVec Ideal ⟨2, ![1, 64]⟩ .f32)
    (r : Fin 100000) (c : Fin 64) : Ideal .f32 :=
  FloatOps.addf (a (ix2 r c)) (b (ix2 (0 : Fin 1) c))

/-- The three steps as whole arrays. -/
def lin1A (x : FVec Ideal ⟨2, ![100000, 128]⟩ .f32) (w : FVec Ideal ⟨2, ![128, 16]⟩ .f32) :
    FVec Ideal ⟨2, ![100000, 16]⟩ .f32 := fun i => lin1 x w (i 0) (i 1)
def lin2A (a : FVec Ideal ⟨2, ![100000, 16]⟩ .f32) (b : FVec Ideal ⟨2, ![1, 16]⟩ .f32)
    (w : FVec Ideal ⟨2, ![16, 64]⟩ .f32) : FVec Ideal ⟨2, ![100000, 64]⟩ .f32 := fun i => lin2 a b w (i 0) (i 1)
def biasedA (a : FVec Ideal ⟨2, ![100000, 64]⟩ .f32) (b : FVec Ideal ⟨2, ![1, 64]⟩ .f32) :
    FVec Ideal ⟨2, ![100000, 64]⟩ .f32 := fun i => biased a b (i 0) (i 1)

theorem lin1A_apply (x w) (r : Fin 100000) (c : Fin 16) : lin1A x w (ix2 r c) = lin1 x w r c := rfl
theorem lin2A_apply (a b w) (r : Fin 100000) (c : Fin 64) : lin2A a b w (ix2 r c) = lin2 a b w r c := rfl
theorem biasedA_apply (a b) (r : Fin 100000) (c : Fin 64) : biasedA a b (ix2 r c) = biased a b r c := rfl

end Cert.Gcn

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Region0.lean ====
/-
  The first dense step of the graph convolution, block by block.

  The product x · W1 is computed in twenty blocks of 5000 node rows.  At block t the kernel reads rows
  5000·t … 5000·t + 4999 of x and the whole 128 × 16 weight array, multiplies them and writes the 5000 × 16 result
  into rows 5000·t … 5000·t + 4999 of the output.  Entry (r, c) of a product reads only row r of the left operand, so
  the block of rows the kernel writes is the same block of rows of the whole product; the twenty blocks tile the
  100000 rows, so after the last block the output array is the whole product.
-/
import proofs.«160660_j1881195675938_1_alg».proof.Proof.Gen.KernelIdeal.Frame
import proofs.«160660_j1881195675938_1_alg».proof.Proof.Spec
import proofs.«160660_j1881195675938_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block access, as the constant function. -/
theorem zero_offsets : (![0, 0] : Fin 2 → Nat) = fun _ => 0 := funext fun a => by fin_cases a <;> rfl

/-- The block indices over the twenty points. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Each of the twenty row blocks is some point's. -/
theorem index_onto : ∀ q : Fin 20, ∃ t : Fin cfg0.N, win0_2.index t = ![q.val, 0] :=
  (by decide +kernel : ∀ q : Fin 20, ∃ t : Fin grid0.N, win0_2.index t = ![q.val, 0])

/-- The dimension numbers of the kernel's product: the left operand's second axis against the right operand's first. -/
abbrev D0 : DotDims S5000x128 S128x16 S5000x16 := dot_S5000x128_S128x16_S5000x16_1_0_0_1_n_n

/-- The left operand is read at the output's row … -/
theorem lhs_row (j : S5000x16.Idx) (k : D0.contr.Idx) : (D0.lhsIdx j k 0).val = (j 0).val := by
  unfold DotDims.lhsIdx
  rw [dif_neg (by decide), dif_pos (by decide)]
  rfl

/-- … and the right operand at the output's column. -/
theorem rhs_col (j : S5000x16.Idx) (k : D0.contr.Idx) : (D0.rhsIdx j k 1).val = (j 1).val := by
  unfold DotDims.rhsIdx
  rw [dif_neg (by decide), dif_pos (by decide)]
  rfl

/-- THE BODY'S RESULT AT AN ENTRY: entry (p, q) of the block the body stores is the sum over the 128 input channels of
    row p of the left block against column q of the weights (rounding to the narrower format changes nothing on the
    extended reals, and the accumulator starts at zero). -/
theorem payload_apply (x0 : Vec Ideal S5000x128 .f32) (x1 : Vec Ideal S128x16 .f32) (p : Fin 5000) (q : Fin 16) :
    k0_pay1 x0 x1 (ix2 p q) = ∑ k : Fin 128, x0 (ix2 p k) * x1 (ix2 k q) := by
  unfold k0_pay1
  exact Cert.LibPlainDot.matmul_zero_apply D0 rfl rfl rfl rfl lhs_row rhs_col none x0 x1 p q

/-- THE LEFT BLOCK: entry x of the block of node features that point t reads is the array's entry in row
    5000 · (block row index) + (x's row) and x's column. -/
theorem lhs_block_apply (c : Dev nD) (t : Fin cfg0.N) (x : S5000x128.Idx) (i : S100000x128.Idx)
    (h0 : (i 0).val = 5000 * win0_2.index t (0 : Fin 2) + (x 0).val) (h1 : (i 1).val = (x 1).val) :
    (iblk0 V c 0 t : Vec Ideal S5000x128 .f32) x = V c main_arg0 i := by
  obtain ⟨e0, e1, -, -, -, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- THE WEIGHTS: the weight window's one block is the whole weight array at every point. -/
theorem rhs_block_apply (c : Dev nD) (t : Fin cfg0.N) (x : S128x16.Idx) :
    (iblk0 V c 1 t : Vec Ideal S128x16 .f32) x = V c main_arg2 x := by
  obtain ⟨-, -, e2, e3, -, -⟩ := index_facts t
  unfold iblk0
  rw [View.read_apply]
  show V c main_arg2 _ = V c main_arg2 _
  congr 1
  funext a
  apply Fin.ext
  match a with
  | ⟨0, _⟩ => show win0_1.index t (0 : Fin 2) * 128 + 1 * (x 0).val = (x 0).val; omega
  | ⟨1, _⟩ => show win0_1.index t (1 : Fin 2) * 16 + 1 * (x 1).val = (x 1).val; omega

/-- THE OUTPUT BLOCK: entry x of the block of a whole output array G that point t writes is G's entry in row
    5000 · (block row index) + (x's row) and x's column. -/
theorem out_block_apply (c : Dev nD) (G : Buf (Elt Ideal) ((c : Thread nD τ).loc main_v30)) (t : Fin cfg0.N) (x : S5000x16.Idx) (i : S100000x16.Idx)
    (h0 : (i 0).val = 5000 * win0_2.index t (0 : Fin 2) + (x 0).val) (h1 : (i 1).val = (x 1).val) :
    (((cfg0.win 2).blk t).view.read (Elt Ideal) G : Vec Ideal S5000x16 .f32) x = (G : S100000x16.Idx → Ideal .f32) i := by
  obtain ⟨-, -, -, -, e4, -⟩ := index_facts t
  rw [View.read_apply]
  show (G : S100000x16.Idx → Ideal .f32) _ = (G : S100000x16.Idx → Ideal .f32) _
  congr 1
  funext a
  apply Fin.ext
  match a with
  | ⟨0, _⟩ => show win0_2.index t (0 : Fin 2) * 5000 + 1 * (x 0).val = (i 0).val; omega
  | ⟨1, _⟩ => show win0_2.index t (1 : Fin 2) * 16 + 1 * (x 1).val = (i 1).val; omega

/-- WHAT POINT t WRITES BACK is its block of rows of the whole product x · W1 of the arrays the region finds. -/
theorem flushed_eq (c : Dev nD) (t : Fin cfg0.N) :
    (dat0 (F := Ideal) V c).flushed 2 t
      = ((cfg0.win 2).blk t).view.read (Elt Ideal) (Cert.Gcn.lin1A (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x16) zero_offsets]
  funext j
  obtain ⟨p, q, rfl⟩ : ∃ (p : Fin 5000) (q : Fin 16), j = ix2 p q := ⟨j 0, j 1, eq_ix2 j⟩
  have hb : win0_2.index t (0 : Fin 2) ≤ 19 := (index_facts t).2.2.2.2.2
  have hp : p.val < 5000 := p.isLt
  -- the row of the whole array that row p of the block is
  let r : Fin 100000 := ⟨5000 * win0_2.index t (0 : Fin 2) + p.val, by omega⟩
  show k0_pay1 (iblk0 V c 0 t) (iblk0 V c 1 t) (ix2 p q) = _
  refine (payload_apply _ _ p q).trans ?_
  refine Eq.trans ?_ (out_block_apply c _ t (ix2 p q) (ix2 r q) rfl rfl).symm
  show _ = Cert.Gcn.lin1 (V c main_arg0) (V c main_arg2) r q
  unfold Cert.Gcn.lin1
  refine Finset.sum_congr rfl fun k _ => ?_
  rw [lhs_block_apply V c t (ix2 p k) (ix2 r k) rfl rfl, rhs_block_apply V c t (ix2 k q)]

/-- An entry of the output array is in point t's block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- THE TWENTY BLOCKS TILE THE ARRAY: row r lies in the block of the point whose block row index is r / 5000, and
    every column is in range. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE OUTPUT ARRAY after the twenty write-backs is the whole product x · W1 of the arrays the region finds. -/
theorem region0_array (c : Dev nD) :
    (dat0 (F := Ideal) V c).arrAt 2 cfg0.N = Cert.Gcn.lin1A (V c main_arg0) (V c main_arg2) :=
  (dat0 (F := Ideal) V c).arrAt_eq_of_cover 2 (Cert.Gcn.lin1A (V c main_arg0) (V c main_arg2))
    (fun t _ => flushed_eq V c t) covered

end Cert.KernelIdeal.Region0

end
-- ==== Proof.Region1.lean ====
/-
  The second dense step of the network, block by block.  The step computes, for every node row r and every output
  channel c, the sum over the 16 hidden channels k of  max(a(r, k) + b(0, k), 0) · w(k, c).  It is carried out in
  twenty blocks of 5000 node rows: block t reads rows 5000·t … 5000·t + 4999 of a, the whole one-row bias b and the
  whole 16 × 64 weight w, and writes rows 5000·t … 5000·t + 4999 of the result.  An entry of the product reads only
  its own row of the left operand, so each block of the result is the same function of the block of rows it was
  computed from, and the twenty blocks together fill the result array.
-/
import proofs.«160660_j1881195675938_1_alg».proof.Proof.Gen.KernelIdeal.Frame
import proofs.«160660_j1881195675938_1_alg».proof.Proof.Spec
import proofs.«160660_j1881195675938_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## The body's product at an entry -/

/-- The dimension numbers of the body's product: a 5000 × 16 block times the 16 × 64 weight, contracting the block's
    second axis with the weight's first, no batch axes. -/
abbrev dims := dot_S5000x16_S16x64_S5000x64_1_0_0_1_n_n

/-- The left operand is read on its row axis at the result's row, whatever the contraction position. -/
theorem lhs_row : ∀ (j : S5000x64.Idx) (k : dims.contr.Idx), (dims.lhsIdx j k 0).val = (j 0).val := by
  intro j k
  rfl

/-- The right operand is read on its column axis at the result's column, whatever the contraction position. -/
theorem rhs_col : ∀ (j : S5000x64.Idx) (k : dims.contr.Idx), (dims.rhsIdx j k 1).val = (j 1).val := by
  intro j k
  rfl

set_option maxHeartbeats 400000 in
/-- WHAT THE BODY COMPUTES, at entry (p, q) of its 5000 × 64 result, from a block of rows `x0`, the one-row bias `x1`
    and the weight `x2`: the sum over the 16 hidden channels k of max(x0(p, k) + x1(0, k), 0) · x2(k, q).
    The product into the zero accumulator is that sum of products of the two operands; the two changes of format are
    the identity on extended reals; the two shape casts are to the shape the operand already has; the bias row
    broadcast over the 5000 rows reads, at (p, k), the row at (0, k); sum, maximum and the splat zero are entry by entry. -/
theorem pay_apply (x0 : FVec Ideal S5000x16 .f32) (x1 : FVec Ideal S1x16 .f32) (x2 : FVec Ideal S16x64 .f32)
    (p : Fin 5000) (q : Fin 64) :
    k1_pay1 (F := Ideal) x0 x1 x2 (ix2 p q)
      = ∑ k : Fin 16, FloatOps.maximumf (FloatOps.addf (x0 (ix2 p k)) (x1 (ix2 (0 : Fin 1) k)))
          (Scalar.ofBits .f32 0x00000000#32) * x2 (ix2 k q) := by
  unfold k1_pay1
  refine (Cert.LibPlainDot.matmul_zero_apply dims rfl rfl rfl rfl lhs_row rhs_col none _ _ p q).trans ?_
  refine Finset.sum_congr rfl fun k _ => ?_
  rw [shapeCast_self, shapeCast_self]
  show FloatOps.maximumf (FloatOps.addf (x0 (ix2 p k)) (broadcastTo S5000x16 x1 broadcasts_S1x16_S5000x16 (ix2 p k)))
      (Scalar.ofBits .f32 0x00000000#32) * x2 (ix2 k q) = _
  rw [broadcastTo_1b_ab_apply]

/-! ## Where each block sits in its array -/

/-- The four index maps, decided over the twenty points: the block of rows read and the block of rows written have the
    same row-block index; every column-block index is 0; the bias and the weight are read at block (0, 0), that is
    whole; and the row-block index written is at most 19. -/
theorem idx_facts : ∀ t : Fin cfg1.N,
    win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0
    ∧ win1_3.index t (0 : Fin 2) ≤ 19 :=
  (by decide +kernel : ∀ t : Fin grid1.N, _)

/-- Each of the twenty row blocks of the result is SOME point's. -/
theorem idx_onto : ∀ q : Fin 20, ∃ t : Fin cfg1.N, win1_3.index t = ![q.val, 0] :=
  (by decide +kernel : ∀ q : Fin 20, ∃ t : Fin grid1.N, win1_3.index t = ![q.val, 0])

/-- The node row that row `p` of point `t`'s block is: 5000 times the row-block index, plus `p`. -/
def row (t : Fin cfg1.N) (p : Fin 5000) : Fin 100000 :=
  ⟨win1_3.index t (0 : Fin 2) * 5000 + p.val, by
    have h := (idx_facts t).2.2.2.2.2.2.2
    have hp := p.isLt
    omega⟩

/-- Entry (p, q) of the block point `t` writes is entry (row t p, q) of the result array: on each axis the block
    index times the block's extent plus the coordinate, the column-block index being 0. -/
theorem emb_out (t : Fin cfg1.N) (p : Fin 5000) (q : Fin 64) :
    ((cfg1.win 3).blk t).view.emb (ix2 p q) = ix2 (row t p) q := by
  obtain ⟨e0, e1, e2, e3, e4, e5, e6, e7⟩ := idx_facts t
  funext a; apply Fin.ext
  match a with
  | ⟨0, _⟩ => show win1_3.index t (0 : Fin 2) * 5000 + 1 * p.val = win1_3.index t (0 : Fin 2) * 5000 + p.val; omega
  | ⟨1, _⟩ => show win1_3.index t (1 : Fin 2) * 64 + 1 * q.val = q.val; omega

/-- Entry (p, k) of the block of rows point `t` reads is entry (row t p, k) of the rows array as the region finds it:
    the block read has the row-block index of the block written. -/
theorem read_rows (c : Dev nD) (t : Fin cfg1.N) (p : Fin 5000) (k : Fin 16) :
    iblk1 V c 0 t (ix2 p k) = V c main_v43 (ix2 (row t p) k) := by
  obtain ⟨e0, e1, e2, e3, e4, e5, e6, e7⟩ := idx_facts t
  show V c main_v43 (((cfg1.win 0).blk t).view.emb (ix2 p k)) = _
  refine congrArg (V c main_v43) ?_
  funext a; apply Fin.ext
  match a with
  | ⟨0, _⟩ => show win1_0.index t (0 : Fin 2) * 5000 + 1 * p.val = win1_3.index t (0 : Fin 2) * 5000 + p.val; omega
  | ⟨1, _⟩ => show win1_0.index t (1 : Fin 2) * 16 + 1 * k.val = k.val; omega

/-- The bias block at any point is the whole one-row bias: entry (0, k) of the block is entry (0, k) of the array. -/
theorem read_bias (c : Dev nD) (t : Fin cfg1.N) (k : Fin 16) :
    iblk1 V c 1 t (ix2 (0 : Fin 1) k) = V c main_v44 (ix2 (0 : Fin 1) k) := by
  obtain ⟨e0, e1, e2, e3, e4, e5, e6, e7⟩ := idx_facts t
  show V c main_v44 (((cfg1.win 1).blk t).view.emb (ix2 (0 : Fin 1) k)) = _
  refine congrArg (V c main_v44) ?_
  funext a; apply Fin.ext
  match a with
  | ⟨0, _⟩ => show win1_1.index t (0 : Fin 2) * 1 + 1 * 0 = 0; omega
  | ⟨1, _⟩ => show win1_1.index t (1 : Fin 2) * 16 + 1 * k.val = k.val; omega

/-- The weight block at any point is the whole weight: entry (k, q) of the block is entry (k, q) of the array. -/
theorem read_weight (c : Dev nD) (t : Fin cfg1.N) (k : Fin 16) (q : Fin 64) :
    iblk1 V c 2 t (ix2 k q) = V c main_arg4 (ix2 k q) := by
  obtain ⟨e0, e1, e2, e3, e4, e5, e6, e7⟩ := idx_facts t
  show V c main_arg4 (((cfg1.win 2).blk t).view.emb (ix2 k q)) = _
  refine congrArg (V c main_arg4) ?_
  funext a; apply Fin.ext
  match a with
  | ⟨0, _⟩ => show win1_2.index t (0 : Fin 2) * 16 + 1 * k.val = k.val; omega
  | ⟨1, _⟩ => show win1_2.index t (1 : Fin 2) * 64 + 1 * q.val = q.val; omega

/-! ## What a point writes back -/

set_option maxHeartbeats 400000 in
/-- WHAT POINT `t` WRITES BACK is block `t` of the second product of the arrays as the region finds them.  The body
    loads its three staging buffers whole and stores its result whole, so the buffer written back holds the body's
    product of the three blocks; at entry (p, q) that is the sum over k of max(rows(p, k) + bias(0, k), 0) · weight(k, q)
    of the blocks, and the blocks' entries are the arrays' entries at (row t p, k), (0, k) and (k, q): term by term the
    sum that defines the product at (row t p, q), which is where the block's entry (p, q) sits in the result. -/
theorem flushed_eq (c : Dev nD) (t : Fin cfg1.N) :
    (dat1 (F := Ideal) V c).flushed 3 t
      = ((cfg1.win 3).blk t).view.read (Elt Ideal) (Cert.Gcn.lin2A (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S16x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
      = Cert.Gcn.lin2A (V c main_v43) (V c main_v44) (V c main_arg4) (((cfg1.win 3).blk t).view.emb (ix2 p q))
  rw [emb_out, Cert.Gcn.lin2A_apply]
  unfold Cert.Gcn.lin2 Cert.Gcn.act
  refine (pay_apply _ _ _ p q).trans ?_
  refine Finset.sum_congr rfl fun k _ => ?_
  rw [read_rows, read_bias, read_weight]

/-! ## The twenty blocks fill the result -/

/-- An entry of the result array is in point `t`'s block iff, on each axis, its coordinate is in the block's range:
    from the block index times the block's extent, for the block's extent. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v45).slice (win1_3.rect t)).set ↔ _
  rw [View.set_slice_whole, Rect.mem_set_unit]
  exact Iff.rfl

/-- Every entry (r, c) of the result is in the block of a point that writes back: the point whose row-block index is
    r / 5000 — then 5000 · (r / 5000) ≤ r < 5000 · (r / 5000) + 5000 —, the one column block holding every column. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- THE RESULT ARRAY after the twenty points have written back is the second product of the rows array, the bias and
    the weight as the region finds them: every point writes its block of that one array, and the blocks cover it. -/
theorem region1_array (c : Dev nD) :
    (dat1 (F := Ideal) V c).arrAt 3 cfg1.N = Cert.Gcn.lin2A (V c main_v43) (V c main_v44) (V c main_arg4) :=
  (dat1 V c).arrAt_eq_of_cover 3 (Cert.Gcn.lin2A (V c main_v43) (V c main_v44) (V c main_arg4))
    (fun t _ => flushed_eq V c t) cover

end Cert.KernelIdeal.Region1

end
-- ==== Proof.Region2.lean ====
/-
  The bias step of the network, a(r, c) + b(0, c), as carried out in twenty blocks of 5000 node rows.

  Point t of the grid reads rows 5000·t … 5000·t + 4999 of the [100000, 64] operand and the whole one-row bias,
  adds the bias row to every row of its block, and writes the block back to the same rows of the output array.
  The blocks tile the array (100000 = 20 · 5000, all 64 columns in each), so after the twenty write-backs the output
  array holds the bias sum at every entry.
-/
import proofs.«160660_j1881195675938_1_alg».proof.Proof.Gen.KernelIdeal.Frame
import proofs.«160660_j1881195675938_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The body's one load and one store start at row 0, column 0 of their staging buffers. -/
theorem zero_offsets : (![0, 0] : Fin 2 → Nat) = fun _ => 0 := funext fun a => by fin_cases a <;> rfl

/-- The index maps, decided over the twenty points: the operand's row block is the output's row block; every window's
    column block is 0; the bias, one block, is always at block (0, 0); the output's row block is at most 19. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the twenty row blocks of the output is written by some point. -/
theorem index_onto : ∀ q : Fin 20, ∃ t : Fin cfg2.N, win2_2.index t = ![q.val, 0] :=
  (by decide +kernel : ∀ q : Fin 20, ∃ t : Fin grid2.N, win2_2.index t = ![q.val, 0])
/-- The body's value at row p, column q of its block: the operand's entry there plus the bias row's entry in column q.
    (The two shape casts are to the shapes the values already have; the one-row bias broadcast over 5000 rows reads its
    row 0 at every row; the sum is entry by entry.) -/
theorem payload_apply (x0 : FVec Ideal S5000x64 .f32) (x1 : FVec Ideal S1x64 .f32) (p : Fin 5000) (q : Fin 64) :
    k2_pay1 x0 x1 (ix2 p q) = FloatOps.addf (x0 (ix2 p q)) (x1 (ix2 (0 : Fin 1) q)) := by
  unfold k2_pay1
  rw [shapeCast_self, shapeCast_self]
  exact congrArg (fun z : Ideal .f32 => FloatOps.addf (x0 (ix2 p q)) z)
    (broadcastTo_1b_ab_apply x1 broadcasts_S1x64_S5000x64 p q)

/-- Row p, column q of the operand's block at point t is row 5000·(row block) + p, column q of the operand array:
    a block's entry sits at block index × block extent + its own coordinate on each axis, the operand's row block is the
    output's, and its column block is 0. -/
theorem operand_block (c : Dev nD) (t : Fin cfg2.N) (p : Fin 5000) (q : Fin 64) (r : Fin 100000)
    (hr : r.val = win2_2.index t (0 : Fin 2) * 5000 + p.val) :
    iblk2 V c 0 t (ix2 p q) = V c main_v58 (ix2 r q) := by
  show V c main_v58 (((cfg2.win 0).blk t).view.emb (ix2 p q)) = V c main_v58 (ix2 r q)
  obtain ⟨e0, e1, -, -, -, -⟩ := index_facts t
  refine congrArg (V c main_v58) ?_
  funext a; apply Fin.ext
  match a with
  | ⟨0, _⟩ => show win2_0.index t (0 : Fin 2) * 5000 + 1 * p.val = r.val; omega
  | ⟨1, _⟩ => show win2_0.index t (1 : Fin 2) * 64 + 1 * q.val = q.val; omega

/-- The bias is one block, at block (0, 0) at every point: column q of its row is column q of the bias array's row. -/
theorem bias_block (c : Dev nD) (t : Fin cfg2.N) (q : Fin 64) :
    iblk2 V c 1 t (ix2 (0 : Fin 1) q) = V c main_v59 (ix2 (0 : Fin 1) q) := by
  show V c main_v59 (((cfg2.win 1).blk t).view.emb (ix2 (0 : Fin 1) q)) = V c main_v59 (ix2 (0 : Fin 1) q)
  obtain ⟨-, -, e2, e3, -, -⟩ := index_facts t
  refine congrArg (V c main_v59) ?_
  funext a; apply Fin.ext
  match a with
  | ⟨0, _⟩ => show win2_1.index t (0 : Fin 2) * 1 + 1 * (0 : Fin 1).val = (0 : Fin 1).val; omega
  | ⟨1, _⟩ => show win2_1.index t (1 : Fin 2) * 64 + 1 * q.val = q.val; omega

/-- Any [100000, 64] array read through the output's block at point t, at row p and column q of the block, is the
    array at row 5000·(row block) + p, column q: the output's column block is 0. -/
theorem output_block (G : FVec Ideal ⟨2, ![100000, 64]⟩ .f32) (t : Fin cfg2.N) (p : Fin 5000) (q : Fin 64)
    (r : Fin 100000) (hr : r.val = win2_2.index t (0 : Fin 2) * 5000 + p.val) :
    ((cfg2.win 2).blk t).view.read (Elt Ideal) G (ix2 p q) = G (ix2 r q) := by
  show G (((cfg2.win 2).blk t).view.emb (ix2 p q)) = G (ix2 r q)
  obtain ⟨-, -, -, -, e4, -⟩ := index_facts t
  refine congrArg G ?_
  funext a; apply Fin.ext
  match a with
  | ⟨0, _⟩ => show win2_2.index t (0 : Fin 2) * 5000 + 1 * p.val = r.val; omega
  | ⟨1, _⟩ => show win2_2.index t (1 : Fin 2) * 64 + 1 * q.val = q.val; omega

/-- WHAT POINT t WRITES BACK is its block of rows of the bias sum of the two arrays as the region finds them: the
    body's one store, over the whole staging buffer, leaves the body's value, which at (p, q) is the operand's entry
    at array row 5000·(row block) + p plus the bias row's entry in column q — the bias sum at that array entry. -/
theorem flushed_eq (c : Dev nD) (t : Fin cfg2.N) :
    (dat2 (F := Ideal) V c).flushed 2 t
      = ((cfg2.win 2).blk t).view.read (Elt Ideal) (Cert.Gcn.biasedA (V c main_v58) (V c main_v59)) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, eq_ix2 j⟩
  show k2_pay1 (iblk2 V c 0 t) (iblk2 V c 1 t) (ix2 p q) = _
  have hb : win2_2.index t (0 : Fin 2) ≤ 19 := (index_facts t).2.2.2.2.2
  have hlt : win2_2.index t (0 : Fin 2) * 5000 + p.val < 100000 := by have := p.isLt; omega
  rw [output_block _ t p q ⟨_, hlt⟩ rfl]
  refine (payload_apply _ _ p q).trans ?_
  rw [operand_block V c t p q ⟨_, hlt⟩ rfl, bias_block V c t q]
  rfl

/-- An entry of the output array is in point t's block iff, on each axis, its coordinate lies in the block's range:
    from block index × block extent, for one block extent. -/
theorem mem_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v60).slice (win2_2.rect t)).set ↔ _
  rw [View.set_slice_whole, Rect.mem_set_unit]
  exact Iff.rfl

/-- THE BLOCKS COVER THE ARRAY: row r lies in the block of the point whose row block is r / 5000 (one of the twenty,
    since r < 100000 = 20 · 5000), and every column lies in that block, which spans all 64. Every point writes back. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- THE OUTPUT ARRAY after all twenty points have written back: the bias sum of the operand and bias arrays as the
    region finds them, at every entry — each point writes its block of it, and the blocks cover the array. -/
theorem region2_array (c : Dev nD) :
    (dat2 (F := Ideal) V c).arrAt 2 cfg2.N = Cert.Gcn.biasedA (V c main_v58) (V c main_v59) :=
  (dat2 (F := Ideal) V c).arrAt_eq_of_cover 2 (Cert.Gcn.biasedA (V c main_v58) (V c main_v59))
    (fun t _ => flushed_eq V c t) cover

end Cert.KernelIdeal.Region2

end
-- ==== Proof.KernelValue.lean ====
/-
  The kernel's result array as one function of the argument arrays.  Walking the fold of @main's segments back from
  the result buffer: the last pipeline leaves the bias sum of its two input arrays; the stretch before it put the
  second layer's neighbourhood sum of the second pipeline's output and the one-row second bias there; the second
  pipeline leaves relu(rows + bias) · W2 of its inputs; the stretch before it put the first layer's neighbourhood sum
  of the first pipeline's output and the one-row first bias there; the first pipeline leaves x · W1; and the edge list,
  its weights and the arguments are what the first three stretches made of the launch memory, untouched since.
-/
import proofs.«160660_j1881195675938_1_alg».proof.Proof.KernelFold
import proofs.«160660_j1881195675938_1_alg».proof.Proof.Region0
import proofs.«160660_j1881195675938_1_alg».proof.Proof.Region1
import proofs.«160660_j1881195675938_1_alg».proof.Proof.Region2

set_option maxRecDepth 16384

noncomputable section

namespace Cert.KernelIdeal.KValue

open Cert.KernelIdeal Cert.KernelIdeal.Gen Cert.KernelIdeal.Fold Idealize.ShloMosaic Idealize.ShloMosaic.TcCoe Idealize.SL.Sem

/-- The network as the kernel computes it: the three dense steps of the specification around the neighbourhood sums,
    the biases as one-row arrays. -/
def out (x : FVec Ideal S100000x128 .f32) (e : Vec Ideal S2x3200000 .i32) (w1 : FVec Ideal S128x16 .f32)
    (b1 : FVec Ideal S16 .f32) (w2 : FVec Ideal S16x64 .f32) (b2 : FVec Ideal S64 .f32) : FVec Ideal S100000x64 .f32 :=
  Cert.Gcn.biasedA
    (agg64 (srcT e) (dstT e) (nrmT e)
      (Cert.Gcn.lin2A (agg16 (srcT e) (dstT e) (nrmT e) (Cert.Gcn.lin1A x w1)) (shapeCast S1x16 b1 shapeCasts_S16_S1x16) w2))
    (shapeCast S1x64 b2 shapeCasts_S64_S1x64)

variable (m : (ℓ : Loc nD τ sig) → Buf (Elt Ideal) ℓ) (ρ : Dev nD → PrngReg) (c : Dev nD)

/-- After the first pipeline its output array holds x · W1. -/
theorem first_product : W4 m ρ c (Proc.devRef .tc main_v30) = Cert.Gcn.lin1A (m ((c.tc : Thread nD τ).loc main_arg0)) (m ((c.tc : Thread nD τ).loc main_arg2)) := by
  have h : W4 m ρ c (Proc.devRef .tc main_v30)
      = Cert.Gcn.lin1A (W3 m ρ c (Proc.devRef .tc main_arg0)) (W3 m ρ c (Proc.devRef .tc main_arg2)) :=
    (W4_arr m ρ c 2).trans (Cert.KernelIdeal.Region0.region0_array (V3 m ρ) c)
  rw [h, entry_arg0 m ρ c, entry_arg2 m ρ c]

/-- What the second pipeline finds in its row window: the first layer's neighbourhood sum of x · W1. -/
theorem second_rows : W5 m ρ c (Proc.devRef .tc main_v43)
    = agg16 (srcT (m ((c.tc : Thread nD τ).loc main_arg1))) (dstT (m ((c.tc : Thread nD τ).loc main_arg1))) (nrmT (m ((c.tc : Thread nD τ).loc main_arg1))) (Cert.Gcn.lin1A (m ((c.tc : Thread nD τ).loc main_arg0)) (m ((c.tc : Thread nD τ).loc main_arg2))) := by
  rw [stretch1_rows m ρ c, mid1_main_v3 m ρ c, mid1_main_v6 m ρ c, mid1_main_v29 m ρ c, entry_src m ρ c, entry_dst m ρ c,
    entry_nrm m ρ c, first_product m ρ c]

/-- The first bias as it finds it: one row. -/
theorem second_bias : W5 m ρ c (Proc.devRef .tc main_v44) = shapeCast S1x16 (m ((c.tc : Thread nD τ).loc main_arg3)) shapeCasts_S16_S1x16 := by
  rw [stretch1_bias m ρ c, mid1_main_arg3 m ρ c, entry_arg3 m ρ c]

/-- The second weight as it finds it. -/
theorem second_weight : W5 m ρ c (Proc.devRef .tc main_arg4) = (m ((c.tc : Thread nD τ).loc main_arg4)) := by
  rw [stretch1_main_arg4 m ρ c, mid1_main_arg4 m ρ c, entry_arg4 m ρ c]

/-- After the second pipeline its output array holds relu(rows + bias) · W2. -/
theorem second_product : W6 m ρ c (Proc.devRef .tc main_v45)
    = Cert.Gcn.lin2A (agg16 (srcT (m ((c.tc : Thread nD τ).loc main_arg1))) (dstT (m ((c.tc : Thread nD τ).loc main_arg1))) (nrmT (m ((c.tc : Thread nD τ).loc main_arg1))) (Cert.Gcn.lin1A (m ((c.tc : Thread nD τ).loc main_arg0)) (m ((c.tc : Thread nD τ).loc main_arg2))))
        (shapeCast S1x16 (m ((c.tc : Thread nD τ).loc main_arg3)) shapeCasts_S16_S1x16) (m ((c.tc : Thread nD τ).loc main_arg4)) := by
  have h : W6 m ρ c (Proc.devRef .tc main_v45)
      = Cert.Gcn.lin2A (W5 m ρ c (Proc.devRef .tc main_v43)) (W5 m ρ c (Proc.devRef .tc main_v44)) (W5 m ρ c (Proc.devRef .tc main_arg4)) :=
    (W6_arr m ρ c 3).trans (Cert.KernelIdeal.Region1.region1_array (V5 m ρ) c)
  rw [h, second_rows m ρ c, second_bias m ρ c, second_weight m ρ c]

/-- What the last pipeline finds in its row window: the second layer's neighbourhood sum. -/
theorem third_rows : W7 m ρ c (Proc.devRef .tc main_v58)
    = agg64 (srcT (m ((c.tc : Thread nD τ).loc main_arg1))) (dstT (m ((c.tc : Thread nD τ).loc main_arg1))) (nrmT (m ((c.tc : Thread nD τ).loc main_arg1)))
        (Cert.Gcn.lin2A (agg16 (srcT (m ((c.tc : Thread nD τ).loc main_arg1))) (dstT (m ((c.tc : Thread nD τ).loc main_arg1))) (nrmT (m ((c.tc : Thread nD τ).loc main_arg1))) (Cert.Gcn.lin1A (m ((c.tc : Thread nD τ).loc main_arg0)) (m ((c.tc : Thread nD τ).loc main_arg2))))
          (shapeCast S1x16 (m ((c.tc : Thread nD τ).loc main_arg3)) shapeCasts_S16_S1x16) (m ((c.tc : Thread nD τ).loc main_arg4))) := by
  rw [stretch2_rows m ρ c, mid2_main_v3 m ρ c, mid2_main_v6 m ρ c, mid2_main_v29 m ρ c,
    stretch1_main_v3 m ρ c, stretch1_main_v6 m ρ c, stretch1_main_v29 m ρ c,
    mid1_main_v3 m ρ c, mid1_main_v6 m ρ c, mid1_main_v29 m ρ c, entry_src m ρ c, entry_dst m ρ c, entry_nrm m ρ c,
    second_product m ρ c]

/-- The second bias as it finds it: one row. -/
theorem third_bias : W7 m ρ c (Proc.devRef .tc main_v59) = shapeCast S1x64 (m ((c.tc : Thread nD τ).loc main_arg5)) shapeCasts_S64_S1x64 := by
  rw [stretch2_bias m ρ c, mid2_main_arg5 m ρ c, stretch1_main_arg5 m ρ c, mid1_main_arg5 m ρ c, entry_arg5 m ρ c]

/-- THE KERNEL'S RESULT: after the last pipeline the result buffer holds the network of the argument arrays. -/
theorem kernel_value : W8 m ρ c (Proc.devRef .tc main_v60)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h : W8 m ρ c (Proc.devRef .tc main_v60)
      = Cert.Gcn.biasedA (W7 m ρ c (Proc.devRef .tc main_v58)) (W7 m ρ c (Proc.devRef .tc main_v59)) :=
    (W8_arr m ρ c 2).trans (Cert.KernelIdeal.Region2.region2_array (V7 m ρ) c)
  rw [h, third_rows m ρ c, third_bias m ρ c]
  rfl

end Cert.KernelIdeal.KValue

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.RefFold.lean ====
/-
  The reference's result, folded.  The reference's run ends with its result buffer at one term: every host operation
  of @main applied to the launch contents of the arguments.  Here that term is read as

      ( S( relu( S(x · W1) + b1 ) · W2 ) + b2 )

  with S the neighbourhood sum over the edge list — the same named functions of the edge array that the kernel's host
  stretches compute — and with each dense step, entry by entry, the specification's: a host product at (r, c) is the
  plain sum over the contracted index, the bias row spread over the node rows reads the row at (0, c), and the maximum
  with the spread zero is the maximum with zero.
-/
import proofs.«160660_j1881195675938_1_alg».proof.Proof.RefRun
import proofs.«160660_j1881195675938_1_alg».proof.Proof.Spec
import proofs.«160660_j1881195675938_1_alg».proof.Proof.LibPlainDot
import proofs.«160660_j1881195675938_1_alg».proof.Proof.LibUnitAxes
import Idealize.ShloMosaic.PureOps.Ideal
import Idealize.ShloMosaic.PureOps.Ideal.Laws
import Idealize.ShloMosaic.Lib.ValueIdx

set_option maxRecDepth 16384

noncomputable section

namespace Cert.ReferenceIdeal.RefFold

open Cert.ReferenceIdeal Cert.ReferenceIdeal.Gen Idealize.ShloMosaic Idealize.ShloMosaic.TcCoe Idealize.SL.Sem Idealize.ShloMosaic.ValueIdx

/-! ## The edge list and its weights, as functions of the edge array

The 3,200,000 given edges are followed by one self-loop per node: `srcT` and `dstT` are row 0 and row 1 of the edge
array, each followed by 0, 1, …, 99999.  A node's degree counts the edges that end in it, and an edge's weight is the
product of the inverse square roots of its two end nodes' degrees (zero where a degree is not positive). -/

/-- The edges' source nodes, self-loops appended. -/
def srcT (e : Vec Ideal S2x3200000 .i32) : Vec Ideal S3300000 .i32 :=
  (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)

/-- The edges' destination nodes, self-loops appended. -/
def dstT (e : Vec Ideal S2x3200000 .i32) : Vec Ideal S3300000 .i32 :=
  (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)

/-- A list of node indices as the gather takes it: a negative index is wrapped by adding 100000, and the list is made
    a one-column array. -/
def srcCol (src : Vec Ideal S3300000 .i32) : Vec Ideal S3300000x1 .i32 :=
  broadcastInDim S3300000x1 ![0] bcast_S3300000_S3300000x1_0
    (select (cmpi .slt src (broadcastInDim S3300000 ![] bcast_S_S3300000 (constantI S_ 32 0#32)))
      (addi src (broadcastInDim S3300000 ![] bcast_S_S3300000 (constantI S_ 32 100000#32))) src)

/-- The nodes' degrees: one added at its destination for every edge. -/
def degT (dst : Vec Ideal S3300000 .i32) : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 dst)
    (broadcastInDim S3300000 ![] bcast_S_S3300000 (constant (F := Ideal) S_ .f32 0x3F800000#32))

/-- The inverse square root of a positive degree, zero otherwise. -/
def dinvT (dst : Vec Ideal S3300000 .i32) : FVec Ideal S100000 .f32 :=
  select (cmpf (F := Ideal) .ogt (degT dst) (broadcastInDim S100000 ![] bcast_S_S100000 (constant (F := Ideal) S_ .f32 0x00000000#32)))
    (Host.rsqrt (F := Ideal) (degT dst))
    (broadcastInDim S100000 ![] bcast_S_S100000 (id (constant (F := Ideal) S_ .f32 0x00000000#32)))

/-- An edge's weight from the per-node factors: the factor at its source times the factor at its destination. -/
def nrmOf (dinv : FVec Ideal S100000 .f32) (src dst : Vec Ideal S3300000 .i32) : FVec Ideal S3300000 .f32 :=
  mulf (Host.gather gather_S100000_S3300000x1_S3300000_n_0_n_n_0_1_1 dinv (srcCol src))
    (Host.gather gather_S100000_S3300000x1_S3300000_n_0_n_n_0_1_1 dinv (srcCol dst))

/-- The edges' weights. -/
def nrmT (e : Vec Ideal S2x3200000 .i32) : FVec Ideal S3300000 .f32 :=
  nrmOf (dinvT (dstT e)) (srcT e) (dstT e)

/-! ## The neighbourhood sum, as one function of the arrays it reads

Both layers aggregate in the same way: row `dst e` of the result collects `nrm e` times row `src e` of the features. -/

/-- The neighbourhood sum of 16-channel features. -/
def agg16 (src dst : Vec Ideal S3300000 .i32) (nrm : FVec Ideal S3300000 .f32)
    (h : FVec Ideal S100000x16 .f32) : FVec Ideal S100000x16 .f32 :=
  Host.scatterAdd (F := Ideal) scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 dst)
    (mulf (Host.gather gather_S100000x16_S3300000x1_S3300000x16_1_0_n_n_0_1_116 h (srcCol src))
      (broadcastInDim S3300000x16 ![0, 1] bcast_S3300000x1_S3300000x16_0_1 (broadcastInDim S3300000x1 ![0] bcast_S3300000_S3300000x1_0 nrm)))

/-- The neighbourhood sum of 64-channel features. -/
def agg64 (src dst : Vec Ideal S3300000 .i32) (nrm : FVec Ideal S3300000 .f32)
    (h : FVec Ideal S100000x64 .f32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 dst)
    (mulf (Host.gather gather_S100000x64_S3300000x1_S3300000x64_1_0_n_n_0_1_164 h (srcCol src))
      (broadcastInDim S3300000x64 ![0, 1] bcast_S3300000x1_S3300000x64_0_1 (broadcastInDim S3300000x1 ![0] bcast_S3300000_S3300000x1_0 nrm)))

/-! ## The dense steps, entry by entry -/

/-- The first host product is the specification's: at (r, c) the sum over the 128 input channels. -/
theorem dot1_eq (x : FVec Ideal S100000x128 .f32) (w : FVec Ideal S128x16 .f32) :
    Host.dotGeneral (F := Ideal) dot_S100000x128_S128x16_S100000x16_1_0_0_1_n_n none x w = Cert.Gcn.lin1A x w := by
  funext i
  obtain ⟨r, q, rfl⟩ : ∃ (r : Fin 100000) (q : Fin 16), i = ix2 r q := ⟨i 0, i 1, eq_ix2 i⟩
  rw [Cert.Gcn.lin1A_apply]
  exact Cert.LibPlainDot.dotGeneral_apply dot_S100000x128_S128x16_S100000x16_1_0_0_1_n_n rfl rfl rfl rfl
    (fun j k => rfl) (fun j k => rfl) none _ x w r q

/-- The second host product, fed the maximum with zero of the rows plus the spread bias row, is the specification's:
    at (r, c) the sum over the 16 hidden channels of max(a(r, k) + b(0, k), 0) · w(k, c). -/
theorem dot2_eq (a : FVec Ideal S100000x16 .f32) (b : FVec Ideal S1x16 .f32) (w : FVec Ideal S16x64 .f32) :
    Host.dotGeneral (F := Ideal) dot_S100000x16_S16x64_S100000x64_1_0_0_1_n_n none
        (maximumf (addf a (broadcastInDim S100000x16 ![0, 1] bcast_S1x16_S100000x16_0_1 b))
          (broadcastInDim S100000x16 ![] bcast_S_S100000x16 (constant (F := Ideal) S_ .f32 0x00000000#32))) w
      = Cert.Gcn.lin2A a b w := by
  funext i
  obtain ⟨r, q, rfl⟩ : ∃ (r : Fin 100000) (q : Fin 64), i = ix2 r q := ⟨i 0, i 1, eq_ix2 i⟩
  rw [Cert.Gcn.lin2A_apply]
  refine (Cert.LibPlainDot.dotGeneral_apply dot_S100000x16_S16x64_S100000x64_1_0_0_1_n_n rfl rfl rfl rfl
    (fun j k => rfl) (fun j k => rfl) none _ _ w r q).trans ?_
  unfold Cert.Gcn.lin2 Cert.Gcn.act
  refine Finset.sum_congr rfl fun k _ => ?_
  show FloatOps.maximumf (FloatOps.addf (a (ix2 r k)) (broadcastInDim S100000x16 ![0, 1] bcast_S1x16_S100000x16_0_1 b (ix2 r k)))
      (broadcastInDim S100000x16 ![] bcast_S_S100000x16 (constant (F := Ideal) S_ .f32 0x00000000#32) (ix2 r k)) * w (ix2 k q) = _
  rw [Cert.LibUnitAxes.broadcastInDim_1b_ab_apply, Cert.LibUnitAxes.broadcastInDim_scalar_apply]
  rfl

/-- The host's sum with the spread bias row is the specification's bias sum. -/
theorem bias_eq (a : FVec Ideal S100000x64 .f32) (b : FVec Ideal S1x64 .f32) :
    addf a (broadcastInDim S100000x64 ![0, 1] bcast_S1x64_S100000x64_0_1 b) = Cert.Gcn.biasedA a b := by
  funext i
  obtain ⟨r, q, rfl⟩ : ∃ (r : Fin 100000) (q : Fin 64), i = ix2 r q := ⟨i 0, i 1, eq_ix2 i⟩
  rw [Cert.Gcn.biasedA_apply]
  show FloatOps.addf (a (ix2 r q)) (broadcastInDim S100000x64 ![0, 1] bcast_S1x64_S100000x64_0_1 b (ix2 r q)) = _
  rw [Cert.LibUnitAxes.broadcastInDim_1b_ab_apply]
  rfl

/-! ## The result term, folded -/

/-- The network as the reference computes it: the specification's dense steps around the neighbourhood sums, each bias
    first spread to one row. -/
def out (x : FVec Ideal S100000x128 .f32) (e : Vec Ideal S2x3200000 .i32) (w1 : FVec Ideal S128x16 .f32)
    (b1 : FVec Ideal S16 .f32) (w2 : FVec Ideal S16x64 .f32) (b2 : FVec Ideal S64 .f32) : FVec Ideal S100000x64 .f32 :=
  Cert.Gcn.biasedA
    (agg64 (srcT e) (dstT e) (nrmT e)
      (Cert.Gcn.lin2A (agg16 (srcT e) (dstT e) (nrmT e) (Cert.Gcn.lin1A x w1)) (broadcastInDim S1x16 ![1] bcast_S16_S1x16_1 b1) w2))
    (broadcastInDim S1x64 ![1] bcast_S64_S1x64_1 b2)

variable (m : (ℓ : Loc nD τ sig) → Buf (Elt Ideal) ℓ) (c : Dev nD)

set_option maxHeartbeats 4000000 in
/-- The run's result term is the host operations' tree; grouped, it is the neighbourhood sums around the host's two
    products and two bias sums. -/
theorem result_folded : ValueP.res_main_v64 (F := Ideal) m c
    = addf
        (agg64 (srcT (m ((c.tc : Thread nD τ).loc main_arg1))) (dstT (m ((c.tc : Thread nD τ).loc main_arg1))) (nrmT (m ((c.tc : Thread nD τ).loc main_arg1)))
          (Host.dotGeneral (F := Ideal) (φ₁ := .f32) (φ₂ := .f32) dot_S100000x16_S16x64_S100000x64_1_0_0_1_n_n none
            (maximumf
              (addf (agg16 (srcT (m ((c.tc : Thread nD τ).loc main_arg1))) (dstT (m ((c.tc : Thread nD τ).loc main_arg1))) (nrmT (m ((c.tc : Thread nD τ).loc main_arg1)))
                  (Host.dotGeneral (F := Ideal) (φ₁ := .f32) (φ₂ := .f32) dot_S100000x128_S128x16_S100000x16_1_0_0_1_n_n none (m ((c.tc : Thread nD τ).loc main_arg0)) (m ((c.tc : Thread nD τ).loc main_arg2))))
                (broadcastInDim S100000x16 ![0, 1] bcast_S1x16_S100000x16_0_1 (broadcastInDim S1x16 ![1] bcast_S16_S1x16_1 (m ((c.tc : Thread nD τ).loc main_arg3)))))
              (broadcastInDim S100000x16 ![] bcast_S_S100000x16 (constant (F := Ideal) S_ .f32 0x00000000#32)))
            (m ((c.tc : Thread nD τ).loc main_arg4))))
        (broadcastInDim S100000x64 ![0, 1] bcast_S1x64_S100000x64_0_1 (broadcastInDim S1x64 ![1] bcast_S64_S1x64_1 (m ((c.tc : Thread nD τ).loc main_arg5)))) := by
  unfold ValueP.res_main_v64 agg64 agg16 nrmT nrmOf dinvT degT srcCol srcT dstT
  rfl

/-- THE REFERENCE'S RESULT is the network of the argument arrays. -/
theorem result_value : ValueP.res_main_v64 (F := Ideal) m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_folded m c, dot1_eq, dot2_eq, bias_eq]
  rfl

end Cert.ReferenceIdeal.RefFold

end
-- ==== Proof.Bridge.lean ====
/-
  The two programs compute one function.  The kernel's result array and the reference's are both

      S( relu( S(x · W1) + b1 ) · W2 ) + b2

  of the argument arrays: the same neighbourhood sums S over the same edge list, around the same three dense steps.
  They differ in one spelling only — the kernel reshapes a bias of length a to one row [1, a], the reference spreads it
  along the second dimension of [1, a] — and the two move no element.  No arithmetic law is used, so the finiteness of
  the inputs is never opened.
-/
import proofs.«160660_j1881195675938_1_alg».proof.Defs
import proofs.«160660_j1881195675938_1_alg».proof.Proof.Gen.Kernel.Frame
import proofs.«160660_j1881195675938_1_alg».proof.Proof.Gen.Pre_finite_inputs
import proofs.«160660_j1881195675938_1_alg».proof.Proof.KernelRun
import proofs.«160660_j1881195675938_1_alg».proof.Proof.KernelValue
import proofs.«160660_j1881195675938_1_alg».proof.Proof.RefFold

set_option maxRecDepth 16384

noncomputable section

open Idealize.ShloMosaic Idealize.ShloMosaic.TcCoe Idealize.SL.Sem

namespace Cert.Proof.Bridge

/-- The network as the kernel computes it is the network as the reference computes it. -/
theorem out_eq (x : FVec Ideal Cert.KernelIdeal.S100000x128 .f32) (e : Vec Ideal Cert.KernelIdeal.S2x3200000 .i32)
    (w1 : FVec Ideal Cert.KernelIdeal.S128x16 .f32) (b1 : FVec Ideal Cert.KernelIdeal.S16 .f32)
    (w2 : FVec Ideal Cert.KernelIdeal.S16x64 .f32) (b2 : FVec Ideal Cert.KernelIdeal.S64 .f32) :
    Cert.KernelIdeal.KValue.out x e w1 b1 w2 b2 = Cert.ReferenceIdeal.RefFold.out x e w1 b1 w2 b2 := by
  unfold Cert.KernelIdeal.KValue.out Cert.ReferenceIdeal.RefFold.out
  rw [Cert.LibUnitAxes.shapeCast_a_1a_eq_broadcastInDim b1 _ Cert.ReferenceIdeal.Gen.bcast_S16_S1x16_1,
    Cert.LibUnitAxes.shapeCast_a_1a_eq_broadcastInDim b2 _ Cert.ReferenceIdeal.Gen.bcast_S64_S1x64_1]
  rfl

/-! ## The claims -/

theorem frame_p : Cert.frame_Kernel := fun m ρ _ => Cert.Kernel.Gen.frame m ρ
theorem frame_pi : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, the kernel's result array (its run, then its value) and the reference's
    (its run, then its folded result term) are the network of the same argument arrays. -/
theorem algebraic : Cert.algebraic_KernelIdeal_ReferenceIdeal := by
  intro m ρ m' ρ' _ hagree
  refine ⟨fun c => Cert.KernelIdeal.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.kernel_value m ρ c), (h c).2⟩)
      (Cert.KernelIdeal.RunV.run_named m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5⟩ := hagree c
    rw [Cert.ReferenceIdeal.RefFold.result_value m' c, h0, h1, h2, h3, h4, h5]
    exact (out_eq _ _ _ _ _ _).symm

end Cert.Proof.Bridge

end
-- ==== Proof.lean ====
/-
  A two-layer graph convolution,  out = S( relu( S(x · W1) + b1 ) · W2 ) + b2,  where S sums the weighted features of
  a node's neighbours over the edge list (with self-loops): the kernel runs the three dense steps — the two products and
  the last bias sum — as three pipelines over twenty blocks of 5000 node rows, the reference as whole-array host
  operations; the edge list, its weights and the two neighbourhood sums are the same host operations in both.

  The claim's five parts:
  · the word-level kernel and the idealized kernel run, fault-free, with the arguments unchanged: the frame of their
    three pipelines among the host stretches;
  · the reference runs likewise: its run, the result dropped;
  · the idealization rewrote nothing;
  · on the extended reals the two results are equal: the kernel's result buffer ends at what the fold of @main's eight
    segments leaves there (Proof/KernelRun), which is the network of the arguments (Proof/KernelValue, over each
    pipeline's output array Proof/Region0–2 and the host stretches Proof/KernelFold); the reference's result term is
    the same network (Proof/RefFold, over its run Proof/RefRun); and the two spellings of the network are one function
    (Proof/Bridge).  A block of rows of a product, or of a bias sum, is that product or sum of the block of rows, so no
    arithmetic law is used and the inputs' finiteness is never needed.
-/
import proofs.«160660_j1881195675938_1_alg».proof.Defs
import proofs.«160660_j1881195675938_1_alg».proof.Proof.Gen.Kernel
import proofs.«160660_j1881195675938_1_alg».proof.Proof.Gen.KernelIdeal
import proofs.«160660_j1881195675938_1_alg».proof.Proof.Gen.ReferenceIdeal
import proofs.«160660_j1881195675938_1_alg».proof.Proof.Gen.Pre_finite_inputs
import proofs.«160660_j1881195675938_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Bridge.frame_p, Cert.Proof.Bridge.frame_pi, Cert.Proof.Bridge.frame_ri, Cert.Proof.Bridge.preserves,
    Cert.Proof.Bridge.algebraic⟩

end Cert.Proof

end
